-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩

abbrev nBuf : Space → Nat
  | .hbm => 66
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's whole run with its RESULT named.

  @main is six segments: three stretches of host operations, the matmul region, a fourth stretch of host
  operations, the bias-and-relu region. The buffer contents at the boundaries are a fold from the launch
  memory (`Gen.W0` … `Gen.W6`): a stretch of host operations rewrites the buffers its operations write, a
  region leaves its output array at what its write-backs folded and every other buffer as it was. Every
  weakly fair execution ends with each unscoped buffer at the last boundary's contents `Gen.W6`; read at
  the five argument buffers that is the frame claim, and read ALSO at the result buffer it names the
  result: the result array ends at `Gen.W6 m ρ c` of its own reference.
-/
import proofs.«156342_j82970178224660_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents of its buffer and the five argument arrays as launched. -/
theorem run_named : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Whole

end
-- ==== Proof.Aggregate.lean ====
/-
  The aggregation both programs share: from the product xw = x · W, the edge list and the edge weights, gather
  row source(e) of xw for every edge e (the given edges, then one self-loop per node), scale it by the edge's
  normalisation dinv[source(e)] · w(e) · dinv[target(e)] — dinv the inverse square root of the weighted in-degree
  where that is positive, zero elsewhere —, and add the scaled rows up at their targets.

  The two programs spell this with the same host operations in the same order, so it is carried here as ONE
  function of xw, the edge list and the weights and never opened: only the product entering it differs between
  the programs, and only the bias and the maximum leaving it.
-/
import proofs.«156342_j82970178224660_2_alg».proof.Proof.Gen.ReferenceIdeal.Read

set_option maxRecDepth 16384

noncomputable section

namespace Cert.ReferenceIdeal.Shared

open Cert.ReferenceIdeal Cert.ReferenceIdeal.Gen Cert.ReferenceIdeal.Read
open Idealize.ShloMosaic Idealize.ShloMosaic.TcCoe Idealize.SL.Sem

/-- Rows of xw gathered at the edges' sources, scaled by the edges' normalisation, added up at the edges' targets. -/
def aggregate (xw : (⟨S100000x128, .f32⟩ : BufTy).Contents (Elt Ideal)) (x1 : (⟨S2x1600000, .i32⟩ : BufTy).Contents (Elt Ideal))
    (x2 : (⟨S1600000, .f32⟩ : BufTy).Contents (Elt Ideal)) : (⟨S100000x128, .f32⟩ : BufTy).Contents (Elt Ideal) :=
  Host.scatterAdd (F := Ideal) (φ := .f32) scatter_S100000x128_S1700000x1_S1700000x128_1_0_0_1 (val_main_v43 (F := Ideal)) (val_main_v44 (F := Ideal) x1)
    (mulf (F := Ideal) (φ := .f32) (Host.gather (α := Ideal .f32) gather_S100000x128_S1700000x1_S1700000x128_1_0_n_n_0_1_1128 xw (val_main_v38 (F := Ideal) x1))
      (val_main_v41 (F := Ideal) x1 x2))

/-- The reference's aggregated array is `aggregate` of its own product. -/
theorem reference_aggregate (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal)) :
    val_main_v45 (F := Ideal) x0 x1 x2 x3 = aggregate (val_main_v32 (F := Ideal) x0 x3) x1 x2 := rfl

end Cert.ReferenceIdeal.Shared

end
-- ==== Proof.MatmulRegion.lean ====
/-
  The matmul region, as a value: after its 25 grid points the output array holds, at row r and column c, the sum
  over k of x[r, k] · W[k, c] on the extended reals.

  Point t loads rows 4000·t … 4000·t + 3999 of x and the whole of W, and stores their product into a zero
  accumulator (the two changes of float format on the way in are the identity at the ideal instance); its write-back
  is block t of the output. Read at (r, c) inside the block, the product is the sum over k of the block's row r of x
  times column c of W; row r of the block is row 4000·t + r of x, and the 25 blocks tile the 100000 rows.
-/
import proofs.«156342_j82970178224660_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Regional

open Cert.KernelIdeal Cert.KernelIdeal.Gen
open Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-- Entry (r, k) of a [100000, 128] array. -/
abbrev atRow (r : Fin 100000) (k : Fin 128) : S100000x128.Idx := fun a => match a with
  | ⟨0, _⟩ => r
  | ⟨1, _⟩ => k
/-- Entry (k, c) of a [128, 128] array. -/
abbrev atCol (k : Fin 128) (c : Fin 128) : S128x128.Idx := fun a => match a with
  | ⟨0, _⟩ => k
  | ⟨1, _⟩ => c

/-- x · W, entry by entry: the sum over the 128 contracted positions of x[r, k] · W[k, c]. -/
def rowsByCols (X : S100000x128.Idx → EReal) (Wm : S128x128.Idx → EReal) : S100000x128.Idx → EReal :=
  fun i => ∑ k : Fin 128, X (atRow ⟨(i 0).val, (i 0).isLt⟩ k) * Wm (atCol k ⟨(i 1).val, (i 1).isLt⟩)

/-- The body's stored value at (r, c) of the block: the sum over k of the loaded rows' (r, k) times W's (k, c). -/
theorem product_apply (x0 : Vec Ideal S4000x128 .f32) (x1 : Vec Ideal S128x128 .f32) (j : S4000x128.Idx) :
    k0_pay1 (F := Ideal) x0 x1 j
      = ∑ k : Fin 128, x0 (fun a => match a with | ⟨0, _⟩ => ⟨(j 0).val, (j 0).isLt⟩ | ⟨1, _⟩ => ⟨k.val, k.isLt⟩)
          * x1 (fun a => match a with | ⟨0, _⟩ => ⟨k.val, k.isLt⟩ | ⟨1, _⟩ => ⟨(j 1).val, (j 1).isLt⟩) := by
  unfold k0_pay1
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k)
      = (fun a => match a with | ⟨0, _⟩ => ⟨(j 0).val, (j 0).isLt⟩ | ⟨1, _⟩ => ⟨k.val, k.isLt⟩ : S4000x128.Idx) := funext fun a => Fin.ext (by
    match a with
    | ⟨0, _⟩ =>
      show (dot_S4000x128_S128x128_S4000x128_1_0_0_1_n_n.lhsIdx j _ 0).val = (j 0).val
      unfold DotDims.lhsIdx
      rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
      rfl
    | ⟨1, _⟩ => exact (dot_S4000x128_S128x128_S4000x128_1_0_0_1_n_n.lhsIdx_val_of_single rfl j _).trans hk)
  have er : dot_S4000x128_S128x128_S4000x128_1_0_0_1_n_n.rhsIdx j ((ValueIdx.contrEquiv1 dot_S4000x128_S128x128_S4000x128_1_0_0_1_n_n 128 rfl rfl).symm k)
      = (fun a => match a with | ⟨0, _⟩ => ⟨k.val, k.isLt⟩ | ⟨1, _⟩ => ⟨(j 1).val, (j 1).isLt⟩ : S128x128.Idx) := funext fun a => Fin.ext (by
    match a with
    | ⟨0, _⟩ => exact (dot_S4000x128_S128x128_S4000x128_1_0_0_1_n_n.rhsIdx_val_of_single rfl j _).trans hk
    | ⟨1, _⟩ =>
      show (dot_S4000x128_S128x128_S4000x128_1_0_0_1_n_n.rhsIdx j _ 1).val = (j 1).val
      unfold DotDims.rhsIdx
      rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
      rfl)
  rw [el, er]
  rfl

variable (V : (c : Dev nD) → (b : Ref sig .tc) → Buf (Elt Ideal) ((c : Thread nD τ).loc b))

/-- The three windows' block indices at every grid point: the rows' block and the output's block are the point's
    own number on the row axis and 0 on the column axis, W's block is (0, 0); and there are 25 points. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- WHAT POINT t WRITES BACK is block t of x · W, of the arrays as the region finds them. -/
theorem flushed0_eq (c : Dev nD) (t : Fin cfg0.N) :
    (dat0 V c).flushed 2 t = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨e0, e1, e2, e3, e4, e5, e6⟩ := block_indices0 t
  funext j
  show k0_pay1 (F := Ideal) (iblk0 V c 0 t) (iblk0 V c 1 t) j = rowsByCols (V c main_arg0) (V c main_arg3) (((cfg0.win 2).blk t).view.emb j)
  rw [product_apply]
  unfold rowsByCols
  refine Finset.sum_congr rfl fun k _ => ?_
  have hj0 : (j 0).val < 4000 := (j 0).isLt
  have hj1 : (j 1).val < 128 := (j 1).isLt
  refine congrArg₂ (· * ·) ?_ ?_
  · show V c main_arg0 (((cfg0.win 0).blk t).view.emb _) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  · show V c main_arg3 (((cfg0.win 1).blk t).view.emb _) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Every block index on the row axis is some point's. -/
theorem block_onto0 : ∀ q : Fin 25, ∃ t : Fin cfg0.N, win0_2.index t = ![q.val, 0] :=
  (by decide +kernel : ∀ q : Fin 25, ∃ t : Fin grid0.N, win0_2.index t = ![q.val, 0])

/-- THE OUTPUT ARRAY after the region: x · W of the arrays as the region finds them — row r is in the block of
    point r / 4000, and the 25 blocks cover every row. -/
theorem product_array (c : Dev nD) :
    (dat0 V c).arrAt 2 cfg0.N = rowsByCols (V c main_arg0) (V c main_arg3) :=
  (dat0 V c).arrAt_eq_of_cover 2 (rowsByCols (V c main_arg0) (V c main_arg3)) (fun t _ => flushed0_eq V c t) fun i => by
    have hi0 : (i 0).val < 100000 := (i 0).isLt
    have hi1 : (i 1).val < 128 := (i 1).isLt
    obtain ⟨t, ht⟩ := block_onto0 ⟨(i 0).val / 4000, by omega⟩
    have q0 : win0_2.index t (0 : Fin 2) = (i 0).val / 4000 := congrFun ht 0
    have q1 : win0_2.index t (1 : Fin 2) = 0 := congrFun ht 1
    refine ⟨t, flush0_2 t, ?_⟩
    rw [mem_block0]
    intro a
    match a with
    | ⟨0, _⟩ => show win0_2.index t (0 : Fin 2) * 4000 ≤ (i 0).val ∧ (i 0).val < win0_2.index t (0 : Fin 2) * 4000 + 4000; omega
    | ⟨1, _⟩ => show win0_2.index t (1 : Fin 2) * 128 ≤ (i 1).val ∧ (i 1).val < win0_2.index t (1 : Fin 2) * 128 + 128; omega

end Cert.KernelIdeal.Regional

end
-- ==== Proof.BiasReluRegion.lean ====
/-
  The bias-and-relu region, as a value: after its 25 grid points the output array holds, at row r and column c,
  max(a[r, c] + b[0, c], 0), where a is the region's first operand and b its one-row second operand.

  Point t loads rows 4000·t … 4000·t + 3999 of a and the one row b, adds b to every row, takes the maximum with
  zero and stores the block; its write-back is block t of the output. The body is pointwise, so entry (r, c) of
  the block is that expression of a's entry (4000·t + r, c) and b's entry (0, c); the 25 blocks tile the rows.
-/
import proofs.«156342_j82970178224660_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Epilogue

open Cert.KernelIdeal Cert.KernelIdeal.Gen
open Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-- Entry (0, c) of a one-row [1, 128] array. -/
abbrev inRow (c : Fin 128) : S1x128.Idx := fun a => match a with
  | ⟨0, _⟩ => ⟨0, Nat.one_pos⟩
  | ⟨1, _⟩ => c

/-- max(a + b, 0) with the one row b added to every row of a, entry by entry. -/
def biasRelu (A : S100000x128.Idx → Ideal .f32) (b2 : S1x128.Idx → Ideal .f32) : S100000x128.Idx → Ideal .f32 :=
  fun i => FloatOps.maximumf (FloatOps.addf (A i) (b2 (inRow ⟨(i 1).val, (i 1).isLt⟩))) (FloatOps.ofBits .f32 0x00000000#32)

/-- The body's stored value at (r, c) of the block: max(a-block[r, c] + b[0, c], 0). -/
theorem biased_apply (x0 : FVec Ideal S4000x128 .f32) (x1 : FVec Ideal S1x128 .f32) (j : S4000x128.Idx) :
    k1_pay1 (F := Ideal) x0 x1 j
      = FloatOps.maximumf (FloatOps.addf (x0 j) (x1 (inRow ⟨(j 1).val, (j 1).isLt⟩))) (FloatOps.ofBits .f32 0x00000000#32) := by
  unfold k1_pay1
  simp only [shapeCast_self]
  have hb : broadcastTo S4000x128 x1 broadcasts_S1x128_S4000x128 j = x1 (inRow ⟨(j 1).val, (j 1).isLt⟩) :=
    broadcastTo_apply x1 broadcasts_S1x128_S4000x128 j (inRow ⟨(j 1).val, (j 1).isLt⟩) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  show FloatOps.maximumf (FloatOps.addf (x0 j) (broadcastTo S4000x128 x1 broadcasts_S1x128_S4000x128 j)) _ = _
  rw [hb]
  rfl

variable (V : (c : Dev nD) → (b : Ref sig .tc) → Buf (Elt Ideal) ((c : Thread nD τ).loc b))

/-- The three windows' block indices at every grid point: a's block and the output's block are the point's own
    number on the row axis and 0 on the column axis, b's block is (0, 0); and there are 25 points. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- WHAT POINT t WRITES BACK is block t of max(a + b, 0), of the arrays as the region finds them. -/
theorem flushed1_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S4000x128) zero_offsets, View.ld_unit_zero (S := S1x128) zero_offsets]
  obtain ⟨e0, e1, e2, e3, e4, e5, e6⟩ := block_indices1 t
  funext j
  show k1_pay1 (F := Ideal) (iblk1 V c 0 t) (iblk1 V c 1 t) j = biasRelu (V c main_v45) (V c main_v46) (((cfg1.win 2).blk t).view.emb j)
  rw [biased_apply]
  unfold biasRelu
  have hj0 : (j 0).val < 4000 := (j 0).isLt
  have hj1 : (j 1).val < 128 := (j 1).isLt
  have hl : (iblk1 V c 0 t : S4000x128.Idx → Ideal .f32) j = V c main_v45 (((cfg1.win 2).blk t).view.emb j) := by
    show V c main_v45 (((cfg1.win 0).blk t).view.emb j) = _
    refine congrArg (V c main_v45) (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * (j 1).val = win1_2.index t (1 : Fin 2) * 128 + 1 * (j 1).val; omega
  have hr : (iblk1 V c 1 t : S1x128.Idx → Ideal .f32) (inRow ⟨(j 1).val, (j 1).isLt⟩)
      = V c main_v46 (inRow ⟨((((cfg1.win 2).blk t).view.emb j) 1).val, ((((cfg1.win 2).blk t).view.emb j) 1).isLt⟩) := by
    show V c main_v46 (((cfg1.win 1).blk t).view.emb _) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact congrArg₂ (fun u v => FloatOps.maximumf (FloatOps.addf u v) (FloatOps.ofBits .f32 0x00000000#32)) hl hr

/-- An index of the output array is in point t's block iff each coordinate is in the block's range on its axis. -/
theorem mem_block1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47).slice (win1_2.rect t)).set ↔ _
  rw [View.set_slice_whole, Rect.mem_set_unit]
  exact Iff.rfl

/-- Every block index on the row axis is some point's. -/
theorem block_onto1 : ∀ q : Fin 25, ∃ t : Fin cfg1.N, win1_2.index t = ![q.val, 0] :=
  (by decide +kernel : ∀ q : Fin 25, ∃ t : Fin grid1.N, win1_2.index t = ![q.val, 0])

/-- THE OUTPUT ARRAY after the region: max(a + b, 0) of the arrays as the region finds them — row r is in the
    block of point r / 4000, and the 25 blocks cover every row. -/
theorem biased_array (c : Dev nD) :
    (dat1 V c).arrAt 2 cfg1.N = biasRelu (V c main_v45) (V c main_v46) :=
  (dat1 V c).arrAt_eq_of_cover 2 (biasRelu (V c main_v45) (V c main_v46)) (fun t _ => flushed1_eq V c t) fun i => by
    have hi0 : (i 0).val < 100000 := (i 0).isLt
    have hi1 : (i 1).val < 128 := (i 1).isLt
    obtain ⟨t, ht⟩ := block_onto1 ⟨(i 0).val / 4000, by omega⟩
    have q0 : win1_2.index t (0 : Fin 2) = (i 0).val / 4000 := congrFun ht 0
    have q1 : win1_2.index t (1 : Fin 2) = 0 := congrFun ht 1
    refine ⟨t, flush1_2 t, ?_⟩
    rw [mem_block1]
    intro a
    match a with
    | ⟨0, _⟩ => show win1_2.index t (0 : Fin 2) * 4000 ≤ (i 0).val ∧ (i 0).val < win1_2.index t (0 : Fin 2) * 4000 + 4000; omega
    | ⟨1, _⟩ => show win1_2.index t (1 : Fin 2) * 128 ≤ (i 1).val ∧ (i 1).val < win1_2.index t (1 : Fin 2) * 128 + 128; omega

end Cert.KernelIdeal.Epilogue

end
-- ==== Proof.HostChain.lean ====
/-
  The idealized kernel's host side, read: what each buffer the two regions and the aggregation consume holds when
  it is consumed, as a function of the launch memory.

  Before the matmul region the host computes the edges' sources and targets (the given edges followed by one
  self-loop per node) and the edges' normalisation; the matmul region fills the product array; after it the host
  gathers, scales and scatter-adds the product's rows (the shared aggregation) and re-lays the bias as one row; the
  bias-and-relu region fills the result. No host operation and no region writes an argument array, and a region
  writes no buffer but its output array, so each buffer is read back through the boundaries to the operations
  that wrote it, and those are the reference's own operations on the same arguments.
-/
import proofs.«156342_j82970178224660_2_alg».proof.Proof.Gen.KernelIdeal.Frame
import proofs.«156342_j82970178224660_2_alg».proof.Proof.Aggregate
import proofs.«156342_j82970178224660_2_alg».proof.Proof.MatmulRegion
import proofs.«156342_j82970178224660_2_alg».proof.Proof.BiasReluRegion
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The edges' sources when the matmul region is entered: the reference's own (edge list row 0, then 0 … n-1). -/
theorem sources_entry (c : Dev nD) :
    W3 m ρ c (Proc.devRef .tc main_v5) = Cert.ReferenceIdeal.Read.val_main_v3 (F := Ideal) (m ((c.tc : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results_simp
  rfl

set_option maxHeartbeats 4000000 in
/-- The edges' targets when the matmul region is entered: the reference's own (edge list row 1, then 0 … n-1). -/
theorem targets_entry (c : Dev nD) :
    W3 m ρ c (Proc.devRef .tc main_v6) = Cert.ReferenceIdeal.Read.val_main_v6 (F := Ideal) (m ((c.tc : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp
  rfl

set_option maxHeartbeats 4000000 in
/-- The edges' sources before the normalisation is computed: the reference's own. -/
theorem sources_mid (c : Dev nD) :
    W2 m ρ c (Proc.devRef .tc main_v5) = Cert.ReferenceIdeal.Read.val_main_v3 (F := Ideal) (m ((c.tc : Thread nD τ).loc main_arg1)) := by
  show StableHlo.after hostOps0_1 (StableHlo.after hostOps0 (W0 m ρ c)) (Proc.devRef .tc main_v5) = _
  simp only [hostOps0_1, hostOps0]
  after_results_simp
  rfl

set_option maxHeartbeats 4000000 in
/-- The edges' targets before the normalisation is computed: the reference's own. -/
theorem targets_mid (c : Dev nD) :
    W2 m ρ c (Proc.devRef .tc main_v6) = Cert.ReferenceIdeal.Read.val_main_v6 (F := Ideal) (m ((c.tc : Thread nD τ).loc main_arg1)) := by
  show StableHlo.after hostOps0_1 (StableHlo.after hostOps0 (W0 m ρ c)) (Proc.devRef .tc main_v6) = _
  simp only [hostOps0_1, hostOps0]
  after_results_simp
  rfl

set_option maxHeartbeats 4000000 in
/-- The edges' weights (the given ones, then 1 per self-loop) before the normalisation is computed: the reference's own. -/
theorem weights_mid (c : Dev nD) :
    W2 m ρ c (Proc.devRef .tc main_v8) = Cert.ReferenceIdeal.Read.val_main_v8 (F := Ideal) (m ((c.tc : Thread nD τ).loc main_arg2)) := by
  show StableHlo.after hostOps0_1 (StableHlo.after hostOps0 (W0 m ρ c)) (Proc.devRef .tc main_v8) = _
  simp only [hostOps0_1, hostOps0]
  after_results_simp
  rfl

set_option maxHeartbeats 8000000 in
/-- Where the weighted in-degree is positive: the reference's own comparison. -/
theorem positive_first (c : Dev nD) :
    W1 m ρ c (Proc.devRef .tc main_v13)
      = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13) = _
  simp only [hostOps0]
  after_results_simp
  rfl

set_option maxHeartbeats 8000000 in
/-- The inverse square root of the weighted in-degree: the reference's own. -/
theorem rsqrt_first (c : Dev nD) :
    W1 m ρ c (Proc.devRef .tc main_v14)
      = Cert.ReferenceIdeal.Read.val_main_v14 (F := Ideal) (m ((c.tc : Thread nD τ).loc main_arg1)) (m ((c.tc : Thread nD τ).loc main_arg2)) := by
  show StableHlo.after hostOps0 (W0 m ρ c) (Proc.devRef .tc main_v14) = _
  simp only [hostOps0]
  after_results_simp
  rfl

set_option maxHeartbeats 4000000 in
/-- The zero the non-positive degrees are given: the reference's own. -/
theorem zero_first (c : Dev nD) :
    W1 m ρ c (Proc.devRef .tc main_cst_2) = Cert.ReferenceIdeal.Read.val_main_cst_2 (F := Ideal) := by
  show StableHlo.after hostOps0 (W0 m ρ c) (Proc.devRef .tc main_cst_2) = _
  simp only [hostOps0]
  after_results_simp
  rfl

/-- The selection step from any contents: the result reads the second array where the mask is set and the
    third's broadcast scalar elsewhere. -/
theorem where_stage (Vv : Valuation τ sig (Elt Ideal)) :
    StableHlo.after hostOps0_1 Vv (Proc.devRef .tc main_v15)
      = select (Vv (Proc.devRef .tc main_v13)) (Vv (Proc.devRef .tc main_v14))
          (broadcastInDim S100000 ![] bcast_S_S100000 (Vv (Proc.devRef .tc main_cst_2))) := by
  simp only [hostOps0_1]
  after_results_simp
  rfl

/-- The inverse square root of the weighted in-degree where positive, zero elsewhere: the reference's own. -/
theorem dinv_mid (c : Dev nD) :
    W2 m ρ c (Proc.devRef .tc main_v15)
      = Cert.ReferenceIdeal.Read.val_main_v15 (F := Ideal) (m ((c.tc : Thread nD τ).loc main_arg1)) (m ((c.tc : Thread nD τ).loc main_arg2)) := by
  refine (where_stage (W1 m ρ c)).trans ?_
  rw [positive_first m ρ c, rsqrt_first m ρ c, zero_first m ρ c]
  rfl

set_option maxHeartbeats 8000000 in
/-- The edges' normalisation when the matmul region is entered: the reference's own — dinv at the source, times
    the weight, times dinv at the target, of the four arrays above. -/
theorem normalisation_entry (c : Dev nD) :
    W3 m ρ c (Proc.devRef .tc main_v31)
      = Cert.ReferenceIdeal.Read.val_main_v31 (F := Ideal) (m ((c.tc : Thread nD τ).loc main_arg1)) (m ((c.tc : Thread nD τ).loc main_arg2)) := by
  have h5 := sources_mid m ρ c
  have h6 := targets_mid m ρ c
  have h8 := weights_mid m ρ c
  have h15 := dinv_mid m ρ c
  show StableHlo.after hostOps0_2 (W2 m ρ c) (Proc.devRef .tc main_v31) = _
  generalize W2 m ρ c = Vv at h5 h6 h8 h15 ⊢
  simp only [hostOps0_2]
  after_results_simp
  rw [h5, h6, h8, h15]
  rfl

set_option maxHeartbeats 4000000 in
/-- The matmul region finds x as launched. -/
theorem x_entry (c : Dev nD) : V3 m ρ c main_arg0 = m ((c.tc : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp

set_option maxHeartbeats 4000000 in
/-- The matmul region finds W as launched. -/
theorem w_entry (c : Dev nD) : V3 m ρ c main_arg3 = m ((c.tc : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp

set_option maxHeartbeats 4000000 in
/-- The bias is as launched when the matmul region is entered. -/
theorem bias_entry (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp

/-- The product array when the matmul region is left: x · W of the launch contents. -/
theorem product_exit (c : Dev nD) :
    W4 m ρ c (Proc.devRef .tc main_v32)
      = Cert.KernelIdeal.Regional.rowsByCols (m ((c.tc : Thread nD τ).loc main_arg0)) (m ((c.tc : Thread nD τ).loc main_arg3)) := by
  rw [show W4 m ρ c (Proc.devRef .tc main_v32) = (dat0 (V3 m ρ) c).arrAt 2 cfg0.N from W4_arr m ρ c 2,
    Cert.KernelIdeal.Regional.product_array (V3 m ρ) c, x_entry, w_entry]

set_option maxHeartbeats 16000000 in
/-- The aggregated array when the bias-and-relu region is entered: the shared aggregation of the product array
    the matmul region left, the edge list and the edge weights. -/
theorem aggregate_entry (c : Dev nD) :
    V5 m ρ c main_v45
      = Cert.ReferenceIdeal.Shared.aggregate (W4 m ρ c (Proc.devRef .tc main_v32)) (m ((c.tc : Thread nD τ).loc main_arg1)) (m ((c.tc : Thread nD τ).loc main_arg2)) := by
  show StableHlo.after hostOps1 (W4 m ρ c) (Proc.devRef .tc main_v45) = _
  simp only [hostOps1]
  after_results_simp
  rw [W4_of_ne m ρ c main_v5 (by decide), W4_of_ne m ρ c main_v6 (by decide), W4_of_ne m ρ c main_v31 (by decide),
    sources_entry, targets_entry, normalisation_entry]
  rfl

set_option maxHeartbeats 4000000 in
/-- The bias row when the bias-and-relu region is entered: the launched bias re-laid as one row. -/
theorem bias_row_entry (c : Dev nD) :
    V5 m ρ c main_v46 = shapeCast S1x128 (m ((c.tc : Thread nD τ).loc main_arg4)) shapeCasts_S128_S1x128 := by
  show StableHlo.after hostOps1 (W4 m ρ c) (Proc.devRef .tc main_v46) = _
  simp only [hostOps1]
  after_results_simp
  rw [W4_of_ne m ρ c main_arg4 (by decide), bias_entry]
  rfl

/-- THE RESULT ARRAY at the last boundary: max(aggregate(x · W) + bias row, 0) of the launch contents. -/
theorem result_exit (c : Dev nD) :
    W6 m ρ c (Proc.devRef .tc main_v47)
      = Cert.KernelIdeal.Epilogue.biasRelu
          (Cert.ReferenceIdeal.Shared.aggregate
            (Cert.KernelIdeal.Regional.rowsByCols (m ((c.tc : Thread nD τ).loc main_arg0)) (m ((c.tc : Thread nD τ).loc main_arg3)))
            (m ((c.tc : Thread nD τ).loc main_arg1)) (m ((c.tc : Thread nD τ).loc main_arg2)))
          (shapeCast S1x128 (m ((c.tc : Thread nD τ).loc main_arg4)) shapeCasts_S128_S1x128) := by
  rw [show W6 m ρ c (Proc.devRef .tc main_v47) = (dat1 (V5 m ρ) c).arrAt 2 cfg1.N from W6_arr m ρ c 2,
    Cert.KernelIdeal.Epilogue.biased_array (V5 m ρ) c, aggregate_entry, bias_row_entry, product_exit]

end Cert.KernelIdeal.HostSide

end
-- ==== Proof.Bridge.lean ====
/-
  The reference's result is the kernel's function of the arguments.

  Index by index: the reference's product x @ W at (r, c) is the sum over k of x[r, k] · W[k, c], which is what
  the matmul region leaves; the aggregation is the shared function of that product; and the reference's
  relu(out + b) at (r, c) is max(out[r, c] + b[c], 0), which is what the bias-and-relu region leaves, its one-row
  operand being the bias re-laid as [1, 128]: entry (0, c) of the row is b[c]. The two sides are one and the same
  expression of the arguments on the extended reals (a finite sum re-indexed, which addition's commutativity there
  allows, and nothing that would ask for finite values), so the inputs' finiteness plays no part.
-/
import proofs.«156342_j82970178224660_2_alg».proof.Proof.MatmulRegion
import proofs.«156342_j82970178224660_2_alg».proof.Proof.BiasReluRegion
import proofs.«156342_j82970178224660_2_alg».proof.Proof.Aggregate
import Idealize.ShloMosaic.Lib.Pipeline.Value

set_option maxRecDepth 16384

noncomputable section

namespace Cert.ReferenceIdeal.Bridge

open Cert.ReferenceIdeal Cert.ReferenceIdeal.Gen Cert.ReferenceIdeal.Read
open Idealize.ShloMosaic Idealize.ShloMosaic.TcCoe Idealize.SL.Sem

/-- The reference's product is the sum the matmul region leaves, entry by entry. -/
theorem reference_product (x0 : (⟨S100000x128, .f32⟩ : BufTy).Contents (Elt Ideal)) (x3 : (⟨S128x128, .f32⟩ : BufTy).Contents (Elt Ideal)) :
    val_main_v32 (F := Ideal) x0 x3 = Cert.KernelIdeal.Regional.rowsByCols x0 x3 := by
  funext i
  rw [val_main_v32_apply]
  rfl

/-- Entry (0, c) of the bias re-laid as one row is entry c of the bias. -/
theorem bias_row_apply (x4 : (⟨S128, .f32⟩ : BufTy).Contents (Elt Ideal)) (i : S100000x128.Idx) :
    shapeCast Cert.KernelIdeal.S1x128 x4 Cert.KernelIdeal.Facts₀.shapeCasts_S128_S1x128 (Cert.KernelIdeal.Epilogue.inRow ⟨(i 1).val, (i 1).isLt⟩)
      = x4 (idx_main_v46 (idx_main_v47 i)) := by
  refine shapeCast_apply x4 _ _ _ ?_
  rw [Shape.rowMajor_val_one, Shape.rowMajor_val_two]
  show (i 1).val = 0 * 128 + (i 1).val
  omega

/-- THE REFERENCE'S RESULT as the kernel's function: max(aggregate(x · W) + bias row, 0). -/
theorem reference_result (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) :
    val_main_v49 (F := Ideal) x0 x1 x2 x3 x4
      = Cert.KernelIdeal.Epilogue.biasRelu
          (Cert.ReferenceIdeal.Shared.aggregate (Cert.KernelIdeal.Regional.rowsByCols x0 x3) x1 x2)
          (shapeCast Cert.KernelIdeal.S1x128 x4 Cert.KernelIdeal.Facts₀.shapeCasts_S128_S1x128) := by
  funext i
  rw [val_main_v49_apply, val_main_v48_apply, val_main_v47_apply, val_main_v46_apply, val_main_call1_v0_apply,
    val_main_call1_cst_apply, Cert.ReferenceIdeal.Shared.reference_aggregate, reference_product]
  unfold Cert.KernelIdeal.Epilogue.biasRelu
  rw [bias_row_apply]

end Cert.ReferenceIdeal.Bridge

end
-- ==== Proof.lean ====
/-
  GCN convolution with self-loops and symmetric normalisation, followed by relu: the kernel computes x · W in a
  first pipelined region (25 blocks of 4000 rows, the operands' change of float format the identity at the ideal
  instance), gathers, scales and scatter-adds the product's rows on the host exactly as the reference does, and
  adds the bias and takes the maximum with zero in a second pipelined region (25 blocks of 4000 rows); the
  reference computes x @ W, the same aggregation, + b and relu on the host.

  At the ideal instance both results are, at row r and column c,
      max( aggregate(x · W)[r, c] + b[c], 0 ),      (x · W)[r, c] = sum over k of x[r, k] · W[k, c],
  on the extended reals. The kernel's side: its whole run ends with the result array at the last boundary's
  contents (Proof/KernelRun.lean), which read back through the two regions' values (Proof/MatmulRegion.lean,
  Proof/BiasReluRegion.lean) and the host operations between them (Proof/HostChain.lean, over the shared
  aggregation of Proof/Aggregate.lean) is that function of the launch contents. The reference's side: its
  generated run, whose result term is the same function (Proof/Bridge.lean). The idealization rewrote no
  operation, so `preserves` has nothing to state; the frames are the generated ones, the reference's being its
  run with the result dropped.
-/
import proofs.«156342_j82970178224660_2_alg».proof.Defs
import proofs.«156342_j82970178224660_2_alg».proof.Proof.Gen.Kernel
import proofs.«156342_j82970178224660_2_alg».proof.Proof.Gen.Kernel.Skeleton
import proofs.«156342_j82970178224660_2_alg».proof.Proof.Gen.Kernel.Launch
import proofs.«156342_j82970178224660_2_alg».proof.Proof.Gen.Kernel.Points
import proofs.«156342_j82970178224660_2_alg».proof.Proof.Gen.Kernel.Frame
import proofs.«156342_j82970178224660_2_alg».proof.Proof.Gen.KernelIdeal
import proofs.«156342_j82970178224660_2_alg».proof.Proof.Gen.KernelIdeal.Skeleton
import proofs.«156342_j82970178224660_2_alg».proof.Proof.Gen.KernelIdeal.Launch
import proofs.«156342_j82970178224660_2_alg».proof.Proof.Gen.KernelIdeal.Points
import proofs.«156342_j82970178224660_2_alg».proof.Proof.Gen.KernelIdeal.Frame
import proofs.«156342_j82970178224660_2_alg».proof.Proof.Gen.ReferenceIdeal
import proofs.«156342_j82970178224660_2_alg».proof.Proof.Gen.Pre_finite_inputs
import proofs.«156342_j82970178224660_2_alg».proof.Proof.Gen.ReferenceIdeal.Run
import proofs.«156342_j82970178224660_2_alg».proof.Proof.Gen.ReferenceIdeal.Read
import proofs.«156342_j82970178224660_2_alg».proof.Proof.KernelRun
import proofs.«156342_j82970178224660_2_alg».proof.Proof.HostChain
import proofs.«156342_j82970178224660_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- From memories agreeing on the five arguments both programs end with the result array at
    max(aggregate(x · W) + bias row, 0) of the arguments, the arguments unchanged. -/
theorem algebraic : Cert.algebraic_KernelIdeal_ReferenceIdeal := by
  intro m ρ m' ρ' _ hagree
  refine ⟨fun c => Cert.KernelIdeal.Gen.W6 m ρ c (Proc.devRef .tc Cert.KernelIdeal.main_v47), Cert.KernelIdeal.Whole.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Bridge.reference_result,
    (hagree c).1, (hagree c).2.1, (hagree c).2.2.1, (hagree c).2.2.2.1, (hagree c).2.2.2.2]
  exact (Cert.KernelIdeal.HostSide.result_exit m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
